-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S256x2 .f32) (main_arg9 : FVec F S2 .f32) (main_v33 : IVec S_ 1) : IVec S_ 1 :=
  let main_v34 : FVec F S256x2 .f32 := Host.absf main_arg8
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x2 .f32) (main_arg9 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x2 .f32) (main_arg9 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x2 : Shape := ⟨2, ![50000, 2]⟩
abbrev S5000x2 : Shape := ⟨2, ![5000, 2]⟩
abbrev S850000x2 : Shape := ⟨2, ![850000, 2]⟩
abbrev S1x2 : Shape := ⟨2, ![1, 2]⟩

abbrev nBuf : Space → Nat
  | .hbm => 119
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x256, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x256, .f32⟩
  | .hbm, ⟨73, _⟩ => ⟨S850000x1, .f32⟩
  | .hbm, ⟨74, _⟩ => ⟨S850000x256, .f32⟩
  | .hbm, ⟨75, _⟩ => ⟨S850000x256, .f32⟩
  | .hbm, ⟨76, _⟩ => ⟨S_, .f32⟩
  | .hbm, ⟨77, _⟩ => ⟨S50000x256, .f32⟩
  | .hbm, ⟨78, _⟩ => ⟨S850000x1, .i32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x256, .f32⟩
  | .hbm, ⟨91, _⟩ => ⟨S850000x1, .f32⟩
  | .hbm, ⟨92, _⟩ => ⟨S850000x256, .f32⟩
  | .hbm, ⟨93, _⟩ => ⟨S850000x256, .f32⟩
  | .hbm, ⟨94, _⟩ => ⟨S_, .f32⟩
  | .hbm, ⟨95, _⟩ => ⟨S50000x256, .f32⟩
  | .hbm, ⟨96, _⟩ => ⟨S850000x1, .i32⟩
  | .hbm, ⟨97, _⟩ => ⟨S50000x256, .f32⟩
  | .hbm, ⟨98, _⟩ => ⟨S1x256, .f32⟩
  | .hbm, ⟨99, _⟩ => ⟨S50000x2, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x2, .f32⟩
  | .hbm, ⟨109, _⟩ => ⟨S850000x1, .f32⟩
  | .hbm, ⟨110, _⟩ => ⟨S850000x2, .f32⟩
  | .hbm, ⟨111, _⟩ => ⟨S850000x2, .f32⟩
  | .hbm, ⟨112, _⟩ => ⟨S_, .f32⟩
  | .hbm, ⟨113, _⟩ => ⟨S50000x2, .f32⟩
  | .hbm, ⟨114, _⟩ => ⟨S850000x1, .i32⟩
  | .hbm, ⟨115, _⟩ => ⟨S50000x2, .f32⟩
  | .hbm, ⟨116, _⟩ => ⟨S1x2, .f32⟩
  | .hbm, ⟨117, _⟩ => ⟨S50000x2, .f32⟩
  | .hbm, ⟨118, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S256x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S1x256, .f32⟩
  | .local _ .vmem, ⟨20, _⟩ => ⟨S256x2, .f32⟩
  | .local _ .vmem, ⟨21, _⟩ => ⟨S5000x2, .f32⟩
  | .local _ .vmem, ⟨22, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x2_S256x2_0_0 : ∀ a, (![0, 0] : Fin 2 → Nat) a + S256x2.size a ≤ S256x2.size a
  h_S256x2 : 0 < S256x2.numel
  inb_S5000x2_S5000x2_0_0 : ∀ a, (![0, 0] : Fin 2 → Nat) a + S5000x2.size a ≤ S5000x2.size a
  h_S5000x2 : 0 < S5000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x2_S5000x2_1_0_0_1_n_n_wf : DotDims.WF S5000x256 S256x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x2.size a ≤ S256x2.size a
  hwx3_2 : ∀ i : grid3.Coords, EltTy.bits .f32 = 32 ∨ (Rect.block (s := S256x2) S256x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S50000x2.size a
  hwx3_3 : ∀ i : grid3.Coords, EltTy.bits .f32 = 32 ∨ (Rect.block (s := S50000x2) S5000x2.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S256x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x2, .f32⟩
  | 9 => ⟨S2, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S50000x256, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x256, .f32⟩
  | 55 => ⟨S850000x1, .f32⟩
  | 56 => ⟨S850000x256, .f32⟩
  | 57 => ⟨S850000x256, .f32⟩
  | 58 => ⟨S_, .f32⟩
  | 59 => ⟨S50000x256, .f32⟩
  | 60 => ⟨S850000x1, .i32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S50000x256, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x256, .f32⟩
  | 78 => ⟨S850000x1, .f32⟩
  | 79 => ⟨S850000x256, .f32⟩
  | 80 => ⟨S850000x256, .f32⟩
  | 81 => ⟨S_, .f32⟩
  | 82 => ⟨S50000x256, .f32⟩
  | 83 => ⟨S850000x1, .i32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S50000x256, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x256, .f32⟩
  | 101 => ⟨S850000x1, .f32⟩
  | 102 => ⟨S850000x256, .f32⟩
  | 103 => ⟨S850000x256, .f32⟩
  | 104 => ⟨S_, .f32⟩
  | 105 => ⟨S50000x256, .f32⟩
  | 106 => ⟨S850000x1, .i32⟩
  | 107 => ⟨S50000x256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x2, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x2, .f32⟩
  | 124 => ⟨S850000x1, .f32⟩
  | 125 => ⟨S850000x2, .f32⟩
  | 126 => ⟨S850000x2, .f32⟩
  | 127 => ⟨S_, .f32⟩
  | _ => ⟨S50000x256, .f32⟩

abbrev hbmTy0_1 (i : Nat) : BufTy := match i % 128 with
  | 0 => ⟨S50000x2, .f32⟩
  | 1 => ⟨S850000x1, .i32⟩
  | 2 => ⟨S50000x2, .f32⟩
  | 3 => ⟨S1x2, .f32⟩
  | 4 => ⟨S50000x2, .f32⟩
  | 5 => ⟨S50000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call2_cst : Ref sig .tc := ⟨.hbm, 111, rfl⟩
abbrev main_call2_v0 : Ref sig .tc := ⟨.hbm, 112, rfl⟩
abbrev main_v81 : Ref sig .tc := ⟨.hbm, 113, rfl⟩
abbrev main_v82 : Ref sig .tc := ⟨.hbm, 114, rfl⟩
abbrev main_c_14 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_16 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The idealized kernel's run, with its result kept.

  The program is four tiled matrix products with host operations between them. Every weakly fair execution ends,
  nothing faults, the ten argument arrays end as launched, and the result array ends at what the last boundary of
  the run holds there: the contents after the last stretch of host operations, read from what the fourth product
  leaves, read in turn from the stretch before it, and so on back to the launch.
-/
import proofs.«145842_j31379031064900_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and each argument array as launched. -/
theorem run_result : θ_run defs (onTc (τ := τ) (main (F := F))) ⟨m, fun _ => 0, ρ⟩ (fun r => ∀ c : Dev nD,
      r.2.mem ((c.tc : Thread nD τ).loc main_v89) = W9 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v89 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Run

end
-- ==== Proof.HostChain.lean ====
/-
  The graph aggregation that both programs apply after every matrix product.

  An edge list gives, per edge, a source row, a destination row and a weight. A source number below zero counts
  from the end, so the number of rows is added to it. One aggregation gathers the source row of every edge from a
  node-feature matrix, scales it by the edge's weight, and adds it into the destination row of a zero matrix. Both
  programs apply this same chain of host operations, so it is named once here and never opened: the two sides are
  compared by comparing what goes into it.
-/
import proofs.«145842_j31379031064900_1_alg».proof.KernelIdeal
import proofs.«145842_j31379031064900_1_alg».proof.Proof.Gen.KernelIdeal

noncomputable section

namespace Cert.KernelIdeal.Chain

open Idealize.ShloMosaic Cert.KernelIdeal Cert.KernelIdeal.Facts₀

variable {F : FTy → Type} [FloatOps F]

/-- Row numbers ready for a gather: a negative number counts from the end; then a unit axis is appended. -/
def wrapIdx (v : (⟨S850000, .i32⟩ : BufTy).Contents (Elt F)) : (⟨S850000x1, .i32⟩ : BufTy).Contents (Elt F) :=
  broadcastInDim S850000x1 ![0] bcast_S850000_S850000x1_0
    (select
      (cmpi .slt v (broadcastInDim S850000 ![] bcast_S_S850000 (constantI S_ 32 0#32 : (⟨S_, .i32⟩ : BufTy).Contents (Elt F)) : (⟨S850000, .i32⟩ : BufTy).Contents (Elt F)))
      (addi v (broadcastInDim S850000 ![] bcast_S_S850000 (constantI S_ 32 50000#32 : (⟨S_, .i32⟩ : BufTy).Contents (Elt F)) : (⟨S850000, .i32⟩ : BufTy).Contents (Elt F)))
      v : (⟨S850000, .i32⟩ : BufTy).Contents (Elt F))

/-- Gather the source rows of a 256-column matrix, scale each by its edge weight, add into the destination rows. -/
def agg256 (src dst : (⟨S850000, .i32⟩ : BufTy).Contents (Elt F)) (nrm : (⟨S850000, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32 : (⟨S_, .f32⟩ : BufTy).Contents (Elt F)) : (⟨S50000x256, .f32⟩ : BufTy).Contents (Elt F))
    (broadcastInDim S850000x1 ![0] bcast_S850000_S850000x1_0 dst : (⟨S850000x1, .i32⟩ : BufTy).Contents (Elt F))
    (mulf
      (Host.gather gather_S50000x256_S850000x1_S850000x256_1_0_n_n_0_1_1256 h (wrapIdx src) : (⟨S850000x256, .f32⟩ : BufTy).Contents (Elt F))
      (broadcastInDim S850000x256 ![0, 1] bcast_S850000x1_S850000x256_0_1
        (broadcastInDim S850000x1 ![0] bcast_S850000_S850000x1_0 nrm : (⟨S850000x1, .f32⟩ : BufTy).Contents (Elt F)) : (⟨S850000x256, .f32⟩ : BufTy).Contents (Elt F)))

/-- The same aggregation of a 2-column matrix. -/
def agg2 (src dst : (⟨S850000, .i32⟩ : BufTy).Contents (Elt F)) (nrm : (⟨S850000, .f32⟩ : BufTy).Contents (Elt F))
    (h : (⟨S50000x2, .f32⟩ : BufTy).Contents (Elt F)) : (⟨S50000x2, .f32⟩ : BufTy).Contents (Elt F) :=
  Host.scatterAdd scatter_S50000x2_S850000x1_S850000x2_1_0_0_1
    (broadcastInDim S50000x2 ![] bcast_S_S50000x2 (constant S_ .f32 0x00000000#32 : (⟨S_, .f32⟩ : BufTy).Contents (Elt F)) : (⟨S50000x2, .f32⟩ : BufTy).Contents (Elt F))
    (broadcastInDim S850000x1 ![0] bcast_S850000_S850000x1_0 dst : (⟨S850000x1, .i32⟩ : BufTy).Contents (Elt F))
    (mulf
      (Host.gather gather_S50000x2_S850000x1_S850000x2_1_0_n_n_0_1_12 h (wrapIdx src) : (⟨S850000x2, .f32⟩ : BufTy).Contents (Elt F))
      (broadcastInDim S850000x2 ![0, 1] bcast_S850000x1_S850000x2_0_1
        (broadcastInDim S850000x1 ![0] bcast_S850000_S850000x1_0 nrm : (⟨S850000x1, .f32⟩ : BufTy).Contents (Elt F)) : (⟨S850000x2, .f32⟩ : BufTy).Contents (Elt F)))

/-- The last bias, a row of two numbers, added to every row. -/
def addBias2 (a : (⟨S50000x2, .f32⟩ : BufTy).Contents (Elt F)) (b : (⟨S2, .f32⟩ : BufTy).Contents (Elt F)) :
    (⟨S50000x2, .f32⟩ : BufTy).Contents (Elt F) :=
  addf a (broadcastInDim S50000x2 ![0, 1] bcast_S1x2_S50000x2_0_1
    (broadcastInDim S1x2 ![1] bcast_S2_S1x2_1 b : (⟨S1x2, .f32⟩ : BufTy).Contents (Elt F)) : (⟨S50000x2, .f32⟩ : BufTy).Contents (Elt F))

end Cert.KernelIdeal.Chain

end
-- ==== Proof.HostSteps.lean ====
/-
  The host operations between the matrix products, one stretch at a time.

  Each stretch is read from ANY contents `W` of the buffers it starts from. The first stretch computes, from the
  edge list alone, the source rows, the destination rows and the edge weights: the same operations, in the same
  order, as the reference's. Each later stretch aggregates the product before it over the graph and lays the next
  bias out as a row; the last one aggregates the two-column product and adds the last bias. A stretch changes only
  the buffers its operations write, so the edge data and the arguments not yet used pass through unchanged.
-/
import proofs.«145842_j31379031064900_1_alg».proof.Proof.Gen.KernelIdeal.Launch
import proofs.«145842_j31379031064900_1_alg».proof.Proof.Gen.ReferenceIdeal.Read
import proofs.«145842_j31379031064900_1_alg».proof.Proof.HostChain
import Idealize.ShloMosaic.Lib.StableHlo.Run

noncomputable section

namespace Cert.KernelIdeal.Steps

open Idealize.ShloMosaic Idealize.ShloMosaic.TcCoe Idealize.ShloMosaic.StableHlo Idealize.SL.Sem
open Cert.KernelIdeal Cert.KernelIdeal.Gen Cert.KernelIdeal.Chain

variable {F : FTy → Type} [FloatOps F] (W : Valuation τ sig (Elt F))

/-! ## Before the first product: the graph's edge data -/

/-- The source rows: the edge list's first row followed by every node's own number. -/
theorem host0_v3 : StableHlo.after hostOps0 W (Proc.devRef .tc main_v3)
    = Cert.ReferenceIdeal.Read.val_main_v3 (W (Proc.devRef .tc main_arg1)) := by
  after_results_simp
  rfl

/-- The destination rows: the edge list's second row followed by every node's own number. -/
theorem host0_v6 : StableHlo.after hostOps0 W (Proc.devRef .tc main_v6)
    = Cert.ReferenceIdeal.Read.val_main_v6 (W (Proc.devRef .tc main_arg1)) := by
  after_results_simp
  rfl

/-- The edge weights: the inverse square roots of the two end nodes' in-degrees, multiplied. -/
theorem host0_v27 : StableHlo.after hostOps0 W (Proc.devRef .tc main_v27)
    = Cert.ReferenceIdeal.Read.val_main_v27 (W (Proc.devRef .tc main_arg1)) := by
  after_results_simp
  rfl

theorem keep0_arg0 : StableHlo.after hostOps0 W (Proc.devRef .tc main_arg0) = W (Proc.devRef .tc main_arg0) := by
  after_results_simp
theorem keep0_arg2 : StableHlo.after hostOps0 W (Proc.devRef .tc main_arg2) = W (Proc.devRef .tc main_arg2) := by
  after_results_simp
theorem keep0_arg3 : StableHlo.after hostOps0 W (Proc.devRef .tc main_arg3) = W (Proc.devRef .tc main_arg3) := by
  after_results_simp
theorem keep0_arg4 : StableHlo.after hostOps0 W (Proc.devRef .tc main_arg4) = W (Proc.devRef .tc main_arg4) := by
  after_results_simp
theorem keep0_arg5 : StableHlo.after hostOps0 W (Proc.devRef .tc main_arg5) = W (Proc.devRef .tc main_arg5) := by
  after_results_simp
theorem keep0_arg6 : StableHlo.after hostOps0 W (Proc.devRef .tc main_arg6) = W (Proc.devRef .tc main_arg6) := by
  after_results_simp
theorem keep0_arg7 : StableHlo.after hostOps0 W (Proc.devRef .tc main_arg7) = W (Proc.devRef .tc main_arg7) := by
  after_results_simp
theorem keep0_arg8 : StableHlo.after hostOps0 W (Proc.devRef .tc main_arg8) = W (Proc.devRef .tc main_arg8) := by
  after_results_simp
theorem keep0_arg9 : StableHlo.after hostOps0 W (Proc.devRef .tc main_arg9) = W (Proc.devRef .tc main_arg9) := by
  after_results_simp

/-! ## Between the first and the second product -/

/-- After this stretch the aggregated array is the aggregation chain applied to the product before it. -/
theorem host1_v41 : StableHlo.after hostOps1 W (Proc.devRef .tc main_v41)
    = agg256 (W (Proc.devRef .tc main_v3)) (W (Proc.devRef .tc main_v6)) (W (Proc.devRef .tc main_v27)) (W (Proc.devRef .tc main_v28)) := by
  after_results_simp
  rfl

/-- The bias vector laid out as one row. -/
theorem host1_v42 : StableHlo.after hostOps1 W (Proc.devRef .tc main_v42)
    = shapeCast S1x256 (W (Proc.devRef .tc main_arg3)) shapeCasts_S256_S1x256 := by
  after_results_simp
  rfl

theorem keep1_v3 : StableHlo.after hostOps1 W (Proc.devRef .tc main_v3) = W (Proc.devRef .tc main_v3) := by
  after_results_simp
theorem keep1_v6 : StableHlo.after hostOps1 W (Proc.devRef .tc main_v6) = W (Proc.devRef .tc main_v6) := by
  after_results_simp
theorem keep1_v27 : StableHlo.after hostOps1 W (Proc.devRef .tc main_v27) = W (Proc.devRef .tc main_v27) := by
  after_results_simp
theorem keep1_arg4 : StableHlo.after hostOps1 W (Proc.devRef .tc main_arg4) = W (Proc.devRef .tc main_arg4) := by
  after_results_simp
theorem keep1_arg5 : StableHlo.after hostOps1 W (Proc.devRef .tc main_arg5) = W (Proc.devRef .tc main_arg5) := by
  after_results_simp
theorem keep1_arg6 : StableHlo.after hostOps1 W (Proc.devRef .tc main_arg6) = W (Proc.devRef .tc main_arg6) := by
  after_results_simp
theorem keep1_arg7 : StableHlo.after hostOps1 W (Proc.devRef .tc main_arg7) = W (Proc.devRef .tc main_arg7) := by
  after_results_simp
theorem keep1_arg8 : StableHlo.after hostOps1 W (Proc.devRef .tc main_arg8) = W (Proc.devRef .tc main_arg8) := by
  after_results_simp
theorem keep1_arg9 : StableHlo.after hostOps1 W (Proc.devRef .tc main_arg9) = W (Proc.devRef .tc main_arg9) := by
  after_results_simp

/-! ## Between the second and the third product -/

/-- After this stretch the aggregated array is the aggregation chain applied to the product before it. -/
theorem host2_v56 : StableHlo.after hostOps2 W (Proc.devRef .tc main_v56)
    = agg256 (W (Proc.devRef .tc main_v3)) (W (Proc.devRef .tc main_v6)) (W (Proc.devRef .tc main_v27)) (W (Proc.devRef .tc main_v43)) := by
  after_results_simp
  rfl

/-- The bias vector laid out as one row. -/
theorem host2_v57 : StableHlo.after hostOps2 W (Proc.devRef .tc main_v57)
    = shapeCast S1x256 (W (Proc.devRef .tc main_arg5)) shapeCasts_S256_S1x256 := by
  after_results_simp
  rfl

theorem keep2_v3 : StableHlo.after hostOps2 W (Proc.devRef .tc main_v3) = W (Proc.devRef .tc main_v3) := by
  after_results_simp
theorem keep2_v6 : StableHlo.after hostOps2 W (Proc.devRef .tc main_v6) = W (Proc.devRef .tc main_v6) := by
  after_results_simp
theorem keep2_v27 : StableHlo.after hostOps2 W (Proc.devRef .tc main_v27) = W (Proc.devRef .tc main_v27) := by
  after_results_simp
theorem keep2_arg6 : StableHlo.after hostOps2 W (Proc.devRef .tc main_arg6) = W (Proc.devRef .tc main_arg6) := by
  after_results_simp
theorem keep2_arg7 : StableHlo.after hostOps2 W (Proc.devRef .tc main_arg7) = W (Proc.devRef .tc main_arg7) := by
  after_results_simp
theorem keep2_arg8 : StableHlo.after hostOps2 W (Proc.devRef .tc main_arg8) = W (Proc.devRef .tc main_arg8) := by
  after_results_simp
theorem keep2_arg9 : StableHlo.after hostOps2 W (Proc.devRef .tc main_arg9) = W (Proc.devRef .tc main_arg9) := by
  after_results_simp

/-! ## Between the third and the fourth product -/

/-- After this stretch the aggregated array is the aggregation chain applied to the product before it. -/
theorem host3_v71 : StableHlo.after hostOps3 W (Proc.devRef .tc main_v71)
    = agg256 (W (Proc.devRef .tc main_v3)) (W (Proc.devRef .tc main_v6)) (W (Proc.devRef .tc main_v27)) (W (Proc.devRef .tc main_v58)) := by
  after_results_simp
  rfl

/-- The bias vector laid out as one row. -/
theorem host3_v72 : StableHlo.after hostOps3 W (Proc.devRef .tc main_v72)
    = shapeCast S1x256 (W (Proc.devRef .tc main_arg7)) shapeCasts_S256_S1x256 := by
  after_results_simp
  rfl

theorem keep3_v3 : StableHlo.after hostOps3 W (Proc.devRef .tc main_v3) = W (Proc.devRef .tc main_v3) := by
  after_results_simp
theorem keep3_v6 : StableHlo.after hostOps3 W (Proc.devRef .tc main_v6) = W (Proc.devRef .tc main_v6) := by
  after_results_simp
theorem keep3_v27 : StableHlo.after hostOps3 W (Proc.devRef .tc main_v27) = W (Proc.devRef .tc main_v27) := by
  after_results_simp
theorem keep3_arg8 : StableHlo.after hostOps3 W (Proc.devRef .tc main_arg8) = W (Proc.devRef .tc main_arg8) := by
  after_results_simp
theorem keep3_arg9 : StableHlo.after hostOps3 W (Proc.devRef .tc main_arg9) = W (Proc.devRef .tc main_arg9) := by
  after_results_simp

/-! ## After the fourth product -/

/-- The result: the two-column product aggregated over the graph, the last bias added to every row. -/
theorem host4_v89 : StableHlo.after hostOps4 W (Proc.devRef .tc main_v89)
    = addBias2 (agg2 (W (Proc.devRef .tc main_v3)) (W (Proc.devRef .tc main_v6)) (W (Proc.devRef .tc main_v27)) (W (Proc.devRef .tc main_v73))) (W (Proc.devRef .tc main_arg9)) := by
  after_results_simp
  rfl

/-! ## The same steps with their operands given by equations -/

/-- The same, with the four operands given by their values. -/
theorem host1_v41_of (s d : (⟨S850000, .i32⟩ : BufTy).Contents (Elt F)) (n : (⟨S850000, .f32⟩ : BufTy).Contents (Elt F)) (h : (⟨S50000x256, .f32⟩ : BufTy).Contents (Elt F))
    (hs : W (Proc.devRef .tc main_v3) = s) (hd : W (Proc.devRef .tc main_v6) = d) (hn : W (Proc.devRef .tc main_v27) = n) (hh : W (Proc.devRef .tc main_v28) = h) :
    StableHlo.after hostOps1 W (Proc.devRef .tc main_v41) = agg256 s d n h := by
  subst hs hd hn hh
  exact host1_v41 W

/-- The same, with the bias vector given by its value. -/
theorem host1_v42_of (b : (⟨S256, .f32⟩ : BufTy).Contents (Elt F)) (hb : W (Proc.devRef .tc main_arg3) = b) :
    StableHlo.after hostOps1 W (Proc.devRef .tc main_v42) = shapeCast S1x256 b shapeCasts_S256_S1x256 := by
  subst hb
  exact host1_v42 W

/-- The same, with the four operands given by their values. -/
theorem host2_v56_of (s d : (⟨S850000, .i32⟩ : BufTy).Contents (Elt F)) (n : (⟨S850000, .f32⟩ : BufTy).Contents (Elt F)) (h : (⟨S50000x256, .f32⟩ : BufTy).Contents (Elt F))
    (hs : W (Proc.devRef .tc main_v3) = s) (hd : W (Proc.devRef .tc main_v6) = d) (hn : W (Proc.devRef .tc main_v27) = n) (hh : W (Proc.devRef .tc main_v43) = h) :
    StableHlo.after hostOps2 W (Proc.devRef .tc main_v56) = agg256 s d n h := by
  subst hs hd hn hh
  exact host2_v56 W

/-- The same, with the bias vector given by its value. -/
theorem host2_v57_of (b : (⟨S256, .f32⟩ : BufTy).Contents (Elt F)) (hb : W (Proc.devRef .tc main_arg5) = b) :
    StableHlo.after hostOps2 W (Proc.devRef .tc main_v57) = shapeCast S1x256 b shapeCasts_S256_S1x256 := by
  subst hb
  exact host2_v57 W

/-- The same, with the four operands given by their values. -/
theorem host3_v71_of (s d : (⟨S850000, .i32⟩ : BufTy).Contents (Elt F)) (n : (⟨S850000, .f32⟩ : BufTy).Contents (Elt F)) (h : (⟨S50000x256, .f32⟩ : BufTy).Contents (Elt F))
    (hs : W (Proc.devRef .tc main_v3) = s) (hd : W (Proc.devRef .tc main_v6) = d) (hn : W (Proc.devRef .tc main_v27) = n) (hh : W (Proc.devRef .tc main_v58) = h) :
    StableHlo.after hostOps3 W (Proc.devRef .tc main_v71) = agg256 s d n h := by
  subst hs hd hn hh
  exact host3_v71 W

/-- The same, with the bias vector given by its value. -/
theorem host3_v72_of (b : (⟨S256, .f32⟩ : BufTy).Contents (Elt F)) (hb : W (Proc.devRef .tc main_arg7) = b) :
    StableHlo.after hostOps3 W (Proc.devRef .tc main_v72) = shapeCast S1x256 b shapeCasts_S256_S1x256 := by
  subst hb
  exact host3_v72 W

/-- The result, with the five operands given by their values. -/
theorem host4_v89_of (s d : (⟨S850000, .i32⟩ : BufTy).Contents (Elt F)) (n : (⟨S850000, .f32⟩ : BufTy).Contents (Elt F)) (h : (⟨S50000x2, .f32⟩ : BufTy).Contents (Elt F)) (b : (⟨S2, .f32⟩ : BufTy).Contents (Elt F))
    (hs : W (Proc.devRef .tc main_v3) = s) (hd : W (Proc.devRef .tc main_v6) = d) (hn : W (Proc.devRef .tc main_v27) = n) (hh : W (Proc.devRef .tc main_v73) = h) (hb : W (Proc.devRef .tc main_arg9) = b) :
    StableHlo.after hostOps4 W (Proc.devRef .tc main_v89) = addBias2 (agg2 s d n h) b := by
  subst hs hd hn hh hb
  exact host4_v89 W

/-- The edge data, with the edge list given by its value. -/
theorem host0_edges_of (e : (⟨S2x800000, .i32⟩ : BufTy).Contents (Elt F)) (he : W (Proc.devRef .tc main_arg1) = e) :
    StableHlo.after hostOps0 W (Proc.devRef .tc main_v3) = Cert.ReferenceIdeal.Read.val_main_v3 e
    ∧ StableHlo.after hostOps0 W (Proc.devRef .tc main_v6) = Cert.ReferenceIdeal.Read.val_main_v6 e
    ∧ StableHlo.after hostOps0 W (Proc.devRef .tc main_v27) = Cert.ReferenceIdeal.Read.val_main_v27 e := by
  subst he
  exact ⟨host0_v3 W, host0_v6 W, host0_v27 W⟩

end Cert.KernelIdeal.Steps

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayerProduct.lean ====
/-
  One layer of the network, read at an entry, over the extended reals.

  A layer multiplies a matrix of node features by a weight matrix. From the second layer on, the features are first
  shifted by a bias row and clamped below at zero. Entry (r, q) of the result is therefore a sum over the contracted
  axis k: of a (r, k) · w (k, q) for the first layer, and of max (a (r, k) + b (0, k)) 0 · w (k, q) for the others.
  Rounding the two factors to a narrower float format changes nothing over the extended reals, and a product
  accumulated into zero is the plain sum, so the tiled kernel body's stored value, read at an entry of its tile, is
  that sum over the tile's own rows.
-/
import Idealize.ShloMosaic.PureOps.Ideal.Laws
import Idealize.ShloMosaic.Lib.ValueIdx
import Idealize.ShloMosaic.Lib.ValueLayout
import Idealize.ShloMosaic.Lib.Pipeline.Value
import proofs.«145842_j31379031064900_1_alg».proof.Proof.LibMatmul

noncomputable section

namespace Cert.Layer

open Idealize.ShloMosaic Idealize.ShloMosaic.ValueIdx

/-- The plain product: entry (r, q) is the sum over k of a (r, k) · w (k, q). -/
def prod {A K B : ℕ} (a : FVec Ideal (⟨2, ![A, K]⟩ : Shape) .f32) (w : FVec Ideal (⟨2, ![K, B]⟩ : Shape) .f32) :
    FVec Ideal (⟨2, ![A, B]⟩ : Shape) .f32 :=
  fun i => ∑ k : Fin K, a (ix2 (i 0) k) * w (ix2 k (i 1))

/-- The product after the bias row is added and negatives are clamped to zero:
    entry (r, q) is the sum over k of max (a (r, k) + b (0, k)) 0 · w (k, q). -/
def biasReluProd {A K B : ℕ} (a : FVec Ideal (⟨2, ![A, K]⟩ : Shape) .f32) (b : FVec Ideal (⟨2, ![1, K]⟩ : Shape) .f32)
    (w : FVec Ideal (⟨2, ![K, B]⟩ : Shape) .f32) : FVec Ideal (⟨2, ![A, B]⟩ : Shape) .f32 :=
  fun i => ∑ k : Fin K, max (a (ix2 (i 0) k) + b (ix2 (0 : Fin 1) k)) 0 * w (ix2 k (i 1))

/-- Two entries of the plain product agree when the row and the column they sum over agree, term by term. -/
theorem prod_congr {A A' K B B' : ℕ}
    (a : FVec Ideal (⟨2, ![A, K]⟩ : Shape) .f32) (w : FVec Ideal (⟨2, ![K, B]⟩ : Shape) .f32)
    (a' : FVec Ideal (⟨2, ![A', K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hw : ∀ k : Fin K, w (ix2 k q) = w' (ix2 k q')) :
    prod a w (ix2 r q) = prod a' w' (ix2 r' q') := by
  show (∑ k : Fin K, a (ix2 r k) * w (ix2 k q)) = ∑ k : Fin K, a' (ix2 r' k) * w' (ix2 k q')
  exact Finset.sum_congr rfl fun k _ => by rw [ha k, hw k]

/-- Two entries of the clamped product agree when the row, the bias row and the column they sum over agree. -/
theorem biasReluProd_congr {A A' K B B' : ℕ}
    (a : FVec Ideal (⟨2, ![A, K]⟩ : Shape) .f32) (b : FVec Ideal (⟨2, ![1, K]⟩ : Shape) .f32) (w : FVec Ideal (⟨2, ![K, B]⟩ : Shape) .f32)
    (a' : FVec Ideal (⟨2, ![A', K]⟩ : Shape) .f32) (b' : FVec Ideal (⟨2, ![1, K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hb : ∀ k : Fin K, b (ix2 (0 : Fin 1) k) = b' (ix2 (0 : Fin 1) k))
    (hw : ∀ k : Fin K, w (ix2 k q) = w' (ix2 k q')) :
    biasReluProd a b w (ix2 r q) = biasReluProd a' b' w' (ix2 r' q') := by
  show (∑ k : Fin K, max (a (ix2 r k) + b (ix2 (0 : Fin 1) k)) 0 * w (ix2 k q))
    = ∑ k : Fin K, max (a' (ix2 r' k) + b' (ix2 (0 : Fin 1) k)) 0 * w' (ix2 k q')
  exact Finset.sum_congr rfl fun k _ => by rw [ha k, hb k, hw k]

/-- The two factors rounded to a narrower format and multiplied into a zero accumulator: the plain product. -/
theorem matmul_trunc_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (x0 : FVec Ideal (⟨2, ![A, K]⟩ : Shape) .f32) (x2 : FVec Ideal (⟨2, ![K, B]⟩ : Shape) .f32) (p : Fin A) (q : Fin B) :
    FloatOps.matmul d none (truncf .bf16 x0 h16) (truncf .bf16 x2 h16)
        (constant (F := Ideal) (⟨2, ![A, B]⟩ : Shape) .f32 0x00000000#32) (ix2 p q)
      = prod x0 x2 (ix2 p q) :=
  (Cert.LibMatmul.matmul_zero_ix2 d hr hs hl0 hl1 hr0 hr1 none _ _ p q).trans
    (Finset.sum_congr rfl fun _ _ => rfl)

/-- The same with the left factor first shifted by a bias row spread over all rows and clamped below at zero. -/
theorem biasRelu_matmul_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hbc : (⟨2, ![1, K]⟩ : Shape).Broadcasts ⟨2, ![A, K]⟩)
    (x0 : FVec Ideal (⟨2, ![A, K]⟩ : Shape) .f32) (x1 : FVec Ideal (⟨2, ![1, K]⟩ : Shape) .f32)
    (x2 : FVec Ideal (⟨2, ![K, B]⟩ : Shape) .f32) (p : Fin A) (q : Fin B) :
    FloatOps.matmul d none
        (truncf .bf16 (maximumf (addf x0 (broadcastTo (⟨2, ![A, K]⟩ : Shape) x1 hbc))
          (broadcast (⟨2, ![A, K]⟩ : Shape) (Scalar.ofBits (F := Ideal) .f32 0x00000000#32))) h16)
        (truncf .bf16 x2 h16)
        (constant (F := Ideal) (⟨2, ![A, B]⟩ : Shape) .f32 0x00000000#32) (ix2 p q)
      = biasReluProd x0 x1 x2 (ix2 p q) := by
  refine (Cert.LibMatmul.matmul_zero_ix2 d hr hs hl0 hl1 hr0 hr1 none _ _ p q).trans ?_
  refine Finset.sum_congr rfl fun k _ => ?_
  show max (x0 (ix2 p k) + broadcastTo (⟨2, ![A, K]⟩ : Shape) x1 hbc (ix2 p k)) (Ideal.ofBits .f32 0x00000000#32) * x2 (ix2 k q)
    = max (x0 (ix2 p k) + x1 (ix2 (0 : Fin 1) k)) 0 * x2 (ix2 k q)
  rw [broadcastTo_1b_ab_apply, Ideal.ofBits_zero_f32]

end Cert.Layer

end
-- ==== Proof.LayerPay.lean ====
/-
  What each kernel body stores, read at an entry of its tile.

  The first body multiplies its 5000-row tile of node features by the whole weight matrix. The other three first
  add the bias row to every row of the tile and clamp negatives to zero. Both factors pass through a narrower float
  format, which changes nothing over the extended reals, and the product accumulates into zero. So entry (p, q)
  of the stored tile is the layer's sum over the contracted axis, taken over row p of the tile.
-/
import proofs.«145842_j31379031064900_1_alg».proof.Proof.Gen.KernelIdeal.Skeleton
import proofs.«145842_j31379031064900_1_alg».proof.Proof.LibLayerProduct

noncomputable section

namespace Cert.KernelIdeal.Pay

open Idealize.ShloMosaic Idealize.ShloMosaic.ValueIdx Cert.KernelIdeal Cert.KernelIdeal.Gen

/-! ## Where the two matrix products read their operands

For output entry `i` and contraction position `q`, the left operand is read at (row of `i`, `q`) and the right at
(`q`, column of `i`): the products have no batch axis and contract the left's columns with the right's rows. -/

theorem wide_l0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem wide_l1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem wide_r0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem wide_r1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

theorem narrow_l0 (i : S5000x2.Idx) (q : dot_S5000x256_S256x2_S5000x2_1_0_0_1_n_n.contr.Idx) : (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl
theorem narrow_l1 (i : S5000x2.Idx) (q : dot_S5000x256_S256x2_S5000x2_1_0_0_1_n_n.contr.Idx) : (dot_S5000x256_S256x2_S5000x2_1_0_0_1_n_n.lhsIdx i q 1).val = (q ⟨0, by decide⟩).val :=
  dot_S5000x256_S256x2_S5000x2_1_0_0_1_n_n.lhsIdx_val_of_single rfl i q
theorem narrow_r0 (i : S5000x2.Idx) (q : dot_S5000x256_S256x2_S5000x2_1_0_0_1_n_n.contr.Idx) : (dot_S5000x256_S256x2_S5000x2_1_0_0_1_n_n.rhsIdx i q 0).val = (q ⟨0, by decide⟩).val :=
  dot_S5000x256_S256x2_S5000x2_1_0_0_1_n_n.rhsIdx_val_of_single rfl i q
theorem narrow_r1 (i : S5000x2.Idx) (q : dot_S5000x256_S256x2_S5000x2_1_0_0_1_n_n.contr.Idx) : (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

/-! ## The four stored values at an entry -/

/-- The first body: entry (p, q) is the sum over k of x (p, k) · w (k, q). -/
theorem pay0_apply (x0 : Vec Ideal S5000x256 .f32) (x2 : Vec Ideal S256x256 .f32) (p : Fin 5000) (q : Fin 256) :
    k0_pay1 x0 x2 (ix2 p q) = Cert.Layer.prod (A := 5000) (K := 256) (B := 256) x0 x2 (ix2 p q) := by
  unfold k0_pay1
  exact Cert.Layer.matmul_trunc_apply dot_S5000x256_S256x256_S5000x256_1_0_0_1_n_n rfl rfl wide_l0 wide_l1 wide_r0 wide_r1 bitsLt_bf16_f32 x0 x2 p q

/-- The second body: entry (p, q) is the sum over k of max (x (p, k) + b (0, k)) 0 · w (k, q). -/
theorem pay1_apply (x0 : Vec Ideal S5000x256 .f32) (x1 : Vec Ideal S1x256 .f32) (x2 : Vec Ideal S256x256 .f32) (p : Fin 5000) (q : Fin 256) :
    k1_pay1 x0 x1 x2 (ix2 p q) = Cert.Layer.biasReluProd (A := 5000) (K := 256) (B := 256) x0 x1 x2 (ix2 p q) := by
  unfold k1_pay1
  rw [shapeCast_self, shapeCast_self]
  exact Cert.Layer.biasRelu_matmul_apply dot_S5000x256_S256x256_S5000x256_1_0_0_1_n_n rfl rfl wide_l0 wide_l1 wide_r0 wide_r1 bitsLt_bf16_f32 broadcasts_S1x256_S5000x256 x0 x1 x2 p q

/-- The third body computes what the second does. -/
theorem pay2_apply (x0 : Vec Ideal S5000x256 .f32) (x1 : Vec Ideal S1x256 .f32) (x2 : Vec Ideal S256x256 .f32) (p : Fin 5000) (q : Fin 256) :
    k2_pay1 x0 x1 x2 (ix2 p q) = Cert.Layer.biasReluProd (A := 5000) (K := 256) (B := 256) x0 x1 x2 (ix2 p q) := by
  unfold k2_pay1
  rw [shapeCast_self, shapeCast_self]
  exact Cert.Layer.biasRelu_matmul_apply dot_S5000x256_S256x256_S5000x256_1_0_0_1_n_n rfl rfl wide_l0 wide_l1 wide_r0 wide_r1 bitsLt_bf16_f32 broadcasts_S1x256_S5000x256 x0 x1 x2 p q

/-- The fourth body does the same against the two-column weight matrix. -/
theorem pay3_apply (x0 : Vec Ideal S5000x256 .f32) (x1 : Vec Ideal S1x256 .f32) (x2 : Vec Ideal S256x2 .f32) (p : Fin 5000) (q : Fin 2) :
    k3_pay1 x0 x1 x2 (ix2 p q) = Cert.Layer.biasReluProd (A := 5000) (K := 256) (B := 2) x0 x1 x2 (ix2 p q) := by
  unfold k3_pay1
  rw [shapeCast_self, shapeCast_self]
  exact Cert.Layer.biasRelu_matmul_apply dot_S5000x256_S256x2_S5000x2_1_0_0_1_n_n rfl rfl narrow_l0 narrow_l1 narrow_r0 narrow_r1 bitsLt_bf16_f32 broadcasts_S1x256_S5000x256 x0 x1 x2 p q

end Cert.KernelIdeal.Pay

end
-- ==== Proof.Region0.lean ====
/-
  The first matrix product's result array, whole.

  The product runs over ten tiles of 5000 rows. At tile t the kernel fetches rows 5000 t … 5000 t + 4999 of the
  node features and the whole weight matrix, and writes back rows 5000 t … 5000 t + 4999 of the result. Row r of
  the result lies in tile r / 5000, and what that tile writes at its row r − 5000 (r / 5000) is the layer's sum over
  row r of the features. The ten tiles cover every row, so the result array ends as the layer applied to the whole
  arrays, whatever those arrays hold when the product starts.
-/
import proofs.«145842_j31379031064900_1_alg».proof.Proof.Gen.KernelIdeal.Frame
import proofs.«145842_j31379031064900_1_alg».proof.Proof.LayerPay
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the feature and result windows at block row `t`, the others at the origin. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The layer applied to the whole arrays as the product finds them. -/
def G (c : Dev nD) : Buf (Elt Ideal) ((c : Thread nD τ).loc main_v28) :=
  Cert.Layer.prod (A := 50000) (K := 256) (B := 256) (V c main_arg0) (V c main_arg2)

/-- Entry `y` of what the body stores at tile `t` is `G` at the entry of the whole array where the tile's entry `y` sits:
    row 5000 t + (row of `y`), the same column. -/
theorem block_eq (c : Dev nD) (t : Fin cfg0.N) (y : S5000x256.Idx) :
    k0_pay1 (iblk0 V c 0 t) (iblk0 V c 1 t) y = G V c (((cfg0.win 2).blk t).view.emb y) := by
  obtain ⟨p, q, rfl⟩ : ∃ (p : Fin 5000) (q : Fin 256), y = ix2 p q := ⟨y 0, y 1, eq_ix2 y⟩
  obtain ⟨e00, e01, e10, e11, e20, e21⟩ := idx_facts t
  have ht : t.val < 10 := by have h := t.isLt; have hN : cfg0.N = 10 := N_0; omega
  have hp : p.val < 5000 := p.isLt
  have hemb : ((cfg0.win 2).blk t).view.emb (ix2 p q) = ix2 (⟨t.val * 5000 + p.val, by omega⟩ : Fin 50000) q :=
    funext fun a => Fin.ext (by
      match a with
      | ⟨0, _⟩ => show win0_2.index t (0 : Fin 2) * 5000 + 1 * p.val = t.val * 5000 + p.val; omega
      | ⟨1, _⟩ => show win0_2.index t (1 : Fin 2) * 256 + 1 * q.val = q.val; omega)
  rw [hemb]
  refine (Cert.KernelIdeal.Pay.pay0_apply (iblk0 V c 0 t) (iblk0 V c 1 t) p q).trans ?_
  unfold G
  refine Cert.Layer.prod_congr _ _ _ _ p q _ q (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 256 + 1 * q.val = q.val; omega

/-- What tile `t` writes back is rows 5000 t … 5000 t + 4999 of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  exact funext fun y => block_eq V c t y

/-- An index of the result array is in tile `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v28).slice (win0_2.rect t)).set ↔ _
  rw [View.set_slice_whole, Rect.mem_set_unit]
  exact Iff.rfl

/-- The ten tiles cover the result array (row r is in tile r / 5000), so it ends as `G`. -/
theorem final (c : Dev nD) : (dat0 V c).arrAt 2 cfg0.N = G V c :=
  (dat0 V c).arrAt_eq_of_cover 2 (G V c) (fun t _ => flushed_eq V c t) fun i => by
    have hi0 : (i 0).val < 50000 := (i 0).isLt
    have hi1 : (i 1).val < 256 := (i 1).isLt
    have hN : cfg0.N = 10 := N_0
    obtain ⟨t, ht⟩ : ∃ t : Fin cfg0.N, t.val = (i 0).val / 5000 :=
      ⟨⟨(i 0).val / 5000, by omega⟩, rfl⟩
    obtain ⟨e00, e01, e10, e11, e20, e21⟩ := idx_facts t
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 256 ≤ (i 1).val ∧ (i 1).val < win0_2.index t (1 : Fin 2) * 256 + 256; omega

/-- The same with the two arrays the product finds given by their values. -/
theorem final_of (c : Dev nD) (a : Buf (Elt Ideal) ((c : Thread nD τ).loc main_arg0)) (w : Buf (Elt Ideal) ((c : Thread nD τ).loc main_arg2))
    (ha : V c main_arg0 = a) (hw : V c main_arg2 = w) :
    (dat0 V c).arrAt 2 cfg0.N = Cert.Layer.prod (A := 50000) (K := 256) (B := 256) a w := by
  subst ha hw
  exact final V c

end Cert.KernelIdeal.Region0

end
-- ==== Proof.Region1.lean ====
/-
  The second matrix product's result array, whole.

  The product runs over ten tiles of 5000 rows. At tile t the kernel fetches rows 5000 t … 5000 t + 4999 of the
  node features, the whole bias row and the whole weight matrix, and writes back rows 5000 t … 5000 t + 4999 of the result. Row r of
  the result lies in tile r / 5000, and what that tile writes at its row r − 5000 (r / 5000) is the layer's sum over
  row r of the features. The ten tiles cover every row, so the result array ends as the layer applied to the whole
  arrays, whatever those arrays hold when the product starts.
-/
import proofs.«145842_j31379031064900_1_alg».proof.Proof.Gen.KernelIdeal.Frame
import proofs.«145842_j31379031064900_1_alg».proof.Proof.LayerPay
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the feature and result windows at block row `t`, the others at the origin. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- The layer applied to the whole arrays as the product finds them. -/
def G (c : Dev nD) : Buf (Elt Ideal) ((c : Thread nD τ).loc main_v43) :=
  Cert.Layer.biasReluProd (A := 50000) (K := 256) (B := 256) (V c main_v41) (V c main_v42) (V c main_arg4)

/-- Entry `y` of what the body stores at tile `t` is `G` at the entry of the whole array where the tile's entry `y` sits:
    row 5000 t + (row of `y`), the same column. -/
theorem block_eq (c : Dev nD) (t : Fin cfg1.N) (y : S5000x256.Idx) :
    k1_pay1 (iblk1 V c 0 t) (iblk1 V c 1 t) (iblk1 V c 2 t) y = G V c (((cfg1.win 3).blk t).view.emb y) := by
  obtain ⟨p, q, rfl⟩ : ∃ (p : Fin 5000) (q : Fin 256), y = ix2 p q := ⟨y 0, y 1, eq_ix2 y⟩
  obtain ⟨e00, e01, e10, e11, e20, e21, e30, e31⟩ := idx_facts t
  have ht : t.val < 10 := by have h := t.isLt; have hN : cfg1.N = 10 := N_1; omega
  have hp : p.val < 5000 := p.isLt
  have hemb : ((cfg1.win 3).blk t).view.emb (ix2 p q) = ix2 (⟨t.val * 5000 + p.val, by omega⟩ : Fin 50000) q :=
    funext fun a => Fin.ext (by
      match a with
      | ⟨0, _⟩ => show win1_3.index t (0 : Fin 2) * 5000 + 1 * p.val = t.val * 5000 + p.val; omega
      | ⟨1, _⟩ => show win1_3.index t (1 : Fin 2) * 256 + 1 * q.val = q.val; omega)
  rw [hemb]
  refine (Cert.KernelIdeal.Pay.pay1_apply (iblk1 V c 0 t) (iblk1 V c 1 t) (iblk1 V c 2 t) p q).trans ?_
  unfold G
  refine Cert.Layer.biasReluProd_congr _ _ _ _ _ _ p q _ q (fun k => ?_) (fun k => ?_) (fun k => ?_)
  · show V c main_v41 (((cfg1.win 0).blk t).view.emb (ix2 p k)) = _
    refine congrArg (V c main_v41) (funext fun a => Fin.ext ?_)
    match a with
    | ⟨0, _⟩ => show win1_0.index t (0 : Fin 2) * 5000 + 1 * p.val = t.val * 5000 + p.val; omega
    | ⟨1, _⟩ => show win1_0.index t (1 : Fin 2) * 256 + 1 * k.val = k.val; omega
  · show V c main_v42 (((cfg1.win 1).blk t).view.emb (ix2 (0 : Fin 1) k)) = _
    refine congrArg (V c main_v42) (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  · show V c main_arg4 (((cfg1.win 2).blk t).view.emb (ix2 k q)) = _
    refine congrArg (V c main_arg4) (funext fun a => Fin.ext ?_)
    match a with
    | ⟨0, _⟩ => show win1_2.index t (0 : Fin 2) * 256 + 1 * k.val = k.val; omega
    | ⟨1, _⟩ => show win1_2.index t (1 : Fin 2) * 256 + 1 * q.val = q.val; omega

/-- What tile `t` writes back is rows 5000 t … 5000 t + 4999 of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x256) hz, View.ld_unit_zero (S := S1x256) hz, View.ld_unit_zero (S := S256x256) hz]
  exact funext fun y => block_eq V c t y

/-- An index of the result array is in tile `t`'s block iff each coordinate is in the block's range on its axis. -/
theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v43).slice (win1_3.rect t)).set ↔ _
  rw [View.set_slice_whole, Rect.mem_set_unit]
  exact Iff.rfl

/-- The ten tiles cover the result array (row r is in tile r / 5000), so it ends as `G`. -/
theorem final (c : Dev nD) : (dat1 V c).arrAt 3 cfg1.N = G V c :=
  (dat1 V c).arrAt_eq_of_cover 3 (G V c) (fun t _ => flushed_eq V c t) fun i => by
    have hi0 : (i 0).val < 50000 := (i 0).isLt
    have hi1 : (i 1).val < 256 := (i 1).isLt
    have hN : cfg1.N = 10 := N_1
    obtain ⟨t, ht⟩ : ∃ t : Fin cfg1.N, t.val = (i 0).val / 5000 :=
      ⟨⟨(i 0).val / 5000, by omega⟩, rfl⟩
    obtain ⟨e00, e01, e10, e11, e20, e21, e30, e31⟩ := idx_facts t
    refine ⟨t, flush1_3 t, ?_⟩
    rw [mem_blk]
    intro a
    match a with
    | ⟨0, _⟩ => show win1_3.index t (0 : Fin 2) * 5000 ≤ (i 0).val ∧ (i 0).val < win1_3.index t (0 : Fin 2) * 5000 + 5000; omega
    | ⟨1, _⟩ => show win1_3.index t (1 : Fin 2) * 256 ≤ (i 1).val ∧ (i 1).val < win1_3.index t (1 : Fin 2) * 256 + 256; omega

/-- The same with the three arrays the product finds given by their values. -/
theorem final_of (c : Dev nD) (a : Buf (Elt Ideal) ((c : Thread nD τ).loc main_v41)) (b : Buf (Elt Ideal) ((c : Thread nD τ).loc main_v42)) (w : Buf (Elt Ideal) ((c : Thread nD τ).loc main_arg4))
    (ha : V c main_v41 = a) (hb : V c main_v42 = b) (hw : V c main_arg4 = w) :
    (dat1 V c).arrAt 3 cfg1.N = Cert.Layer.biasReluProd (A := 50000) (K := 256) (B := 256) a b w := by
  subst ha hb hw
  exact final V c

end Cert.KernelIdeal.Region1

end
-- ==== Proof.Region2.lean ====
/-
  The third matrix product's result array, whole.

  The product runs over ten tiles of 5000 rows. At tile t the kernel fetches rows 5000 t … 5000 t + 4999 of the
  node features, the whole bias row and the whole weight matrix, and writes back rows 5000 t … 5000 t + 4999 of the result. Row r of
  the result lies in tile r / 5000, and what that tile writes at its row r − 5000 (r / 5000) is the layer's sum over
  row r of the features. The ten tiles cover every row, so the result array ends as the layer applied to the whole
  arrays, whatever those arrays hold when the product starts.
-/
import proofs.«145842_j31379031064900_1_alg».proof.Proof.Gen.KernelIdeal.Frame
import proofs.«145842_j31379031064900_1_alg».proof.Proof.LayerPay
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the feature and result windows at block row `t`, the others at the origin. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- The layer applied to the whole arrays as the product finds them. -/
def G (c : Dev nD) : Buf (Elt Ideal) ((c : Thread nD τ).loc main_v58) :=
  Cert.Layer.biasReluProd (A := 50000) (K := 256) (B := 256) (V c main_v56) (V c main_v57) (V c main_arg6)

/-- Entry `y` of what the body stores at tile `t` is `G` at the entry of the whole array where the tile's entry `y` sits:
    row 5000 t + (row of `y`), the same column. -/
theorem block_eq (c : Dev nD) (t : Fin cfg2.N) (y : S5000x256.Idx) :
    k2_pay1 (iblk2 V c 0 t) (iblk2 V c 1 t) (iblk2 V c 2 t) y = G V c (((cfg2.win 3).blk t).view.emb y) := by
  obtain ⟨p, q, rfl⟩ : ∃ (p : Fin 5000) (q : Fin 256), y = ix2 p q := ⟨y 0, y 1, eq_ix2 y⟩
  obtain ⟨e00, e01, e10, e11, e20, e21, e30, e31⟩ := idx_facts t
  have ht : t.val < 10 := by have h := t.isLt; have hN : cfg2.N = 10 := N_2; omega
  have hp : p.val < 5000 := p.isLt
  have hemb : ((cfg2.win 3).blk t).view.emb (ix2 p q) = ix2 (⟨t.val * 5000 + p.val, by omega⟩ : Fin 50000) q :=
    funext fun a => Fin.ext (by
      match a with
      | ⟨0, _⟩ => show win2_3.index t (0 : Fin 2) * 5000 + 1 * p.val = t.val * 5000 + p.val; omega
      | ⟨1, _⟩ => show win2_3.index t (1 : Fin 2) * 256 + 1 * q.val = q.val; omega)
  rw [hemb]
  refine (Cert.KernelIdeal.Pay.pay2_apply (iblk2 V c 0 t) (iblk2 V c 1 t) (iblk2 V c 2 t) p q).trans ?_
  unfold G
  refine Cert.Layer.biasReluProd_congr _ _ _ _ _ _ p q _ q (fun k => ?_) (fun k => ?_) (fun k => ?_)
  · show V c main_v56 (((cfg2.win 0).blk t).view.emb (ix2 p k)) = _
    refine congrArg (V c main_v56) (funext fun a => Fin.ext ?_)
    match a with
    | ⟨0, _⟩ => show win2_0.index t (0 : Fin 2) * 5000 + 1 * p.val = t.val * 5000 + p.val; omega
    | ⟨1, _⟩ => show win2_0.index t (1 : Fin 2) * 256 + 1 * k.val = k.val; omega
  · show V c main_v57 (((cfg2.win 1).blk t).view.emb (ix2 (0 : Fin 1) k)) = _
    refine congrArg (V c main_v57) (funext fun a => Fin.ext ?_)
    match a with
    | ⟨0, _⟩ => show win2_1.index t (0 : Fin 2) * 1 + 1 * 0 = 0; omega
    | ⟨1, _⟩ => show win2_1.index t (1 : Fin 2) * 256 + 1 * k.val = k.val; omega
  · show V c main_arg6 (((cfg2.win 2).blk t).view.emb (ix2 k q)) = _
    refine congrArg (V c main_arg6) (funext fun a => Fin.ext ?_)
    match a with
    | ⟨0, _⟩ => show win2_2.index t (0 : Fin 2) * 256 + 1 * k.val = k.val; omega
    | ⟨1, _⟩ => show win2_2.index t (1 : Fin 2) * 256 + 1 * q.val = q.val; omega

/-- What tile `t` writes back is rows 5000 t … 5000 t + 4999 of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x256) hz, View.ld_unit_zero (S := S1x256) hz, View.ld_unit_zero (S := S256x256) hz]
  exact funext fun y => block_eq V c t y

/-- An index of the result array is in tile `t`'s block iff each coordinate is in the block's range on its axis. -/
theorem mem_blk (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v58).slice (win2_3.rect t)).set ↔ _
  rw [View.set_slice_whole, Rect.mem_set_unit]
  exact Iff.rfl

/-- The ten tiles cover the result array (row r is in tile r / 5000), so it ends as `G`. -/
theorem final (c : Dev nD) : (dat2 V c).arrAt 3 cfg2.N = G V c :=
  (dat2 V c).arrAt_eq_of_cover 3 (G V c) (fun t _ => flushed_eq V c t) fun i => by
    have hi0 : (i 0).val < 50000 := (i 0).isLt
    have hi1 : (i 1).val < 256 := (i 1).isLt
    have hN : cfg2.N = 10 := N_2
    obtain ⟨t, ht⟩ : ∃ t : Fin cfg2.N, t.val = (i 0).val / 5000 :=
      ⟨⟨(i 0).val / 5000, by omega⟩, rfl⟩
    obtain ⟨e00, e01, e10, e11, e20, e21, e30, e31⟩ := idx_facts t
    refine ⟨t, flush2_3 t, ?_⟩
    rw [mem_blk]
    intro a
    match a with
    | ⟨0, _⟩ => show win2_3.index t (0 : Fin 2) * 5000 ≤ (i 0).val ∧ (i 0).val < win2_3.index t (0 : Fin 2) * 5000 + 5000; omega
    | ⟨1, _⟩ => show win2_3.index t (1 : Fin 2) * 256 ≤ (i 1).val ∧ (i 1).val < win2_3.index t (1 : Fin 2) * 256 + 256; omega

/-- The same with the three arrays the product finds given by their values. -/
theorem final_of (c : Dev nD) (a : Buf (Elt Ideal) ((c : Thread nD τ).loc main_v56)) (b : Buf (Elt Ideal) ((c : Thread nD τ).loc main_v57)) (w : Buf (Elt Ideal) ((c : Thread nD τ).loc main_arg6))
    (ha : V c main_v56 = a) (hb : V c main_v57 = b) (hw : V c main_arg6 = w) :
    (dat2 V c).arrAt 3 cfg2.N = Cert.Layer.biasReluProd (A := 50000) (K := 256) (B := 256) a b w := by
  subst ha hb hw
  exact final V c

end Cert.KernelIdeal.Region2

end
-- ==== Proof.Region3.lean ====
/-
  The fourth matrix product's result array, whole.

  The product runs over ten tiles of 5000 rows. At tile t the kernel fetches rows 5000 t … 5000 t + 4999 of the
  node features, the whole bias row and the whole weight matrix, and writes back rows 5000 t … 5000 t + 4999 of the result. Row r of
  the result lies in tile r / 5000, and what that tile writes at its row r − 5000 (r / 5000) is the layer's sum over
  row r of the features. The ten tiles cover every row, so the result array ends as the layer applied to the whole
  arrays, whatever those arrays hold when the product starts.
-/
import proofs.«145842_j31379031064900_1_alg».proof.Proof.Gen.KernelIdeal.Frame
import proofs.«145842_j31379031064900_1_alg».proof.Proof.LayerPay
import Idealize.ShloMosaic.Lib.Pipeline.Value

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the feature and result windows at block row `t`, the others at the origin. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- The layer applied to the whole arrays as the product finds them. -/
def G (c : Dev nD) : Buf (Elt Ideal) ((c : Thread nD τ).loc main_v73) :=
  Cert.Layer.biasReluProd (A := 50000) (K := 256) (B := 2) (V c main_v71) (V c main_v72) (V c main_arg8)

/-- Entry `y` of what the body stores at tile `t` is `G` at the entry of the whole array where the tile's entry `y` sits:
    row 5000 t + (row of `y`), the same column. -/
theorem block_eq (c : Dev nD) (t : Fin cfg3.N) (y : S5000x2.Idx) :
    k3_pay1 (iblk3 V c 0 t) (iblk3 V c 1 t) (iblk3 V c 2 t) y = G V c (((cfg3.win 3).blk t).view.emb y) := by
  obtain ⟨p, q, rfl⟩ : ∃ (p : Fin 5000) (q : Fin 2), y = ix2 p q := ⟨y 0, y 1, eq_ix2 y⟩
  obtain ⟨e00, e01, e10, e11, e20, e21, e30, e31⟩ := idx_facts t
  have ht : t.val < 10 := by have h := t.isLt; have hN : cfg3.N = 10 := N_3; omega
  have hp : p.val < 5000 := p.isLt
  have hemb : ((cfg3.win 3).blk t).view.emb (ix2 p q) = ix2 (⟨t.val * 5000 + p.val, by omega⟩ : Fin 50000) q :=
    funext fun a => Fin.ext (by
      match a with
      | ⟨0, _⟩ => show win3_3.index t (0 : Fin 2) * 5000 + 1 * p.val = t.val * 5000 + p.val; omega
      | ⟨1, _⟩ => show win3_3.index t (1 : Fin 2) * 2 + 1 * q.val = q.val; omega)
  rw [hemb]
  refine (Cert.KernelIdeal.Pay.pay3_apply (iblk3 V c 0 t) (iblk3 V c 1 t) (iblk3 V c 2 t) p q).trans ?_
  unfold G
  refine Cert.Layer.biasReluProd_congr _ _ _ _ _ _ p q _ q (fun k => ?_) (fun k => ?_) (fun k => ?_)
  · show V c main_v71 (((cfg3.win 0).blk t).view.emb (ix2 p k)) = _
    refine congrArg (V c main_v71) (funext fun a => Fin.ext ?_)
    match a with
    | ⟨0, _⟩ => show win3_0.index t (0 : Fin 2) * 5000 + 1 * p.val = t.val * 5000 + p.val; omega
    | ⟨1, _⟩ => show win3_0.index t (1 : Fin 2) * 256 + 1 * k.val = k.val; omega
  · show V c main_v72 (((cfg3.win 1).blk t).view.emb (ix2 (0 : Fin 1) k)) = _
    refine congrArg (V c main_v72) (funext fun a => Fin.ext ?_)
    match a with
    | ⟨0, _⟩ => show win3_1.index t (0 : Fin 2) * 1 + 1 * 0 = 0; omega
    | ⟨1, _⟩ => show win3_1.index t (1 : Fin 2) * 256 + 1 * k.val = k.val; omega
  · show V c main_arg8 (((cfg3.win 2).blk t).view.emb (ix2 k q)) = _
    refine congrArg (V c main_arg8) (funext fun a => Fin.ext ?_)
    match a with
    | ⟨0, _⟩ => show win3_2.index t (0 : Fin 2) * 256 + 1 * k.val = k.val; omega
    | ⟨1, _⟩ => show win3_2.index t (1 : Fin 2) * 2 + 1 * q.val = q.val; omega

/-- What tile `t` writes back is rows 5000 t … 5000 t + 4999 of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x256) hz, View.ld_unit_zero (S := S1x256) hz, View.ld_unit_zero (S := S256x2) hz]
  exact funext fun y => block_eq V c t y

/-- An index of the result array is in tile `t`'s block iff each coordinate is in the block's range on its axis. -/
theorem mem_blk (t : Fin cfg3.N) (i : S50000x2.Idx) :
    i ∈ ((cfg3.win 3).blk t).view.set ↔ ∀ a : Fin 2, win3_3.index t a * S5000x2.size a ≤ (i a).val ∧ (i a).val < win3_3.index t a * S5000x2.size a + S5000x2.size a := by
  show i ∈ ((View.whole main_v73).slice (win3_3.rect t)).set ↔ _
  rw [View.set_slice_whole, Rect.mem_set_unit]
  exact Iff.rfl

/-- The ten tiles cover the result array (row r is in tile r / 5000), so it ends as `G`. -/
theorem final (c : Dev nD) : (dat3 V c).arrAt 3 cfg3.N = G V c :=
  (dat3 V c).arrAt_eq_of_cover 3 (G V c) (fun t _ => flushed_eq V c t) fun i => by
    have hi0 : (i 0).val < 50000 := (i 0).isLt
    have hi1 : (i 1).val < 2 := (i 1).isLt
    have hN : cfg3.N = 10 := N_3
    obtain ⟨t, ht⟩ : ∃ t : Fin cfg3.N, t.val = (i 0).val / 5000 :=
      ⟨⟨(i 0).val / 5000, by omega⟩, rfl⟩
    obtain ⟨e00, e01, e10, e11, e20, e21, e30, e31⟩ := idx_facts t
    refine ⟨t, flush3_3 t, ?_⟩
    rw [mem_blk]
    intro a
    match a with
    | ⟨0, _⟩ => show win3_3.index t (0 : Fin 2) * 5000 ≤ (i 0).val ∧ (i 0).val < win3_3.index t (0 : Fin 2) * 5000 + 5000; omega
    | ⟨1, _⟩ => show win3_3.index t (1 : Fin 2) * 2 ≤ (i 1).val ∧ (i 1).val < win3_3.index t (1 : Fin 2) * 2 + 2; omega

/-- The same with the three arrays the product finds given by their values. -/
theorem final_of (c : Dev nD) (a : Buf (Elt Ideal) ((c : Thread nD τ).loc main_v71)) (b : Buf (Elt Ideal) ((c : Thread nD τ).loc main_v72)) (w : Buf (Elt Ideal) ((c : Thread nD τ).loc main_arg8))
    (ha : V c main_v71 = a) (hb : V c main_v72 = b) (hw : V c main_arg8 = w) :
    (dat3 V c).arrAt 3 cfg3.N = Cert.Layer.biasReluProd (A := 50000) (K := 256) (B := 2) a b w := by
  subst ha hb hw
  exact final V c

end Cert.KernelIdeal.Region3

end
-- ==== Proof.RefLayers.lean ====
/-
  The reference, layer by layer.

  The reference computes each layer as one whole matrix product on the host: for the first layer of the node
  features with the first weight matrix; for each later layer of the aggregated features, with the bias added to
  every row and negatives clamped to zero, with that layer's weight matrix. Read at an entry (r, q) each is the
  layer's sum over the contracted axis. Between two products the reference applies the same graph aggregation as
  the kernel's program, operation for operation, so each aggregated array is that one chain applied to the product
  before it.
-/
import proofs.«145842_j31379031064900_1_alg».proof.Proof.Gen.ReferenceIdeal.Read
import proofs.«145842_j31379031064900_1_alg».proof.Proof.LibLayerProduct
import proofs.«145842_j31379031064900_1_alg».proof.Proof.HostChain

noncomputable section

namespace Cert.ReferenceIdeal.Layers

open Idealize.ShloMosaic Idealize.ShloMosaic.ValueIdx Cert.ReferenceIdeal Cert.ReferenceIdeal.Read

/-! ## The four products at an entry -/

/-- The first product: entry (r, q) is the sum over k of x (r, k) · w (k, q). -/
theorem v28_eq (x0 : (⟨S50000x256, .f32⟩ : BufTy).Contents (Elt Ideal)) (x2 : (⟨S256x256, .f32⟩ : BufTy).Contents (Elt Ideal)) :
    val_main_v28 (F := Ideal) x0 x2 = Cert.Layer.prod (A := 50000) (K := 256) (B := 256) x0 x2 := by
  funext i
  obtain ⟨r, q, rfl⟩ : ∃ (r : Fin 50000) (q : Fin 256), i = ix2 r q := ⟨i 0, i 1, eq_ix2 i⟩
  rw [val_main_v28_apply]
  show _ = ∑ k : Fin 256, x0 (ix2 r k) * x2 (ix2 k q)
  refine Finset.sum_congr rfl fun k _ => ?_
  have hl : lidx_main_v28 (ix2 r q) k = ix2 r k := funext fun a => Fin.ext (by match a with | ⟨0, _⟩ => rfl | ⟨1, _⟩ => rfl)
  have hr : ridx_main_v28 (ix2 r q) k = ix2 k q := funext fun a => Fin.ext (by match a with | ⟨0, _⟩ => rfl | ⟨1, _⟩ => rfl)
  rw [hl, hr]

/-- The second product: the aggregated first product, shifted by the first bias (given as any row array `b` holding it) and clamped, against the second weight matrix. -/
theorem v46_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal))
    (b : FVec Ideal (⟨2, ![1, 256]⟩ : Shape) .f32) (hb : ∀ k : Fin 256, b (ix2 (0 : Fin 1) k) = x3 (ix1 k)) :
    val_main_v46 (F := Ideal) x0 x1 x2 x3 x4
      = Cert.Layer.biasReluProd (A := 50000) (K := 256) (B := 256) (val_main_v41 (F := Ideal) x0 x1 x2) b x4 := by
  funext i
  obtain ⟨r, q, rfl⟩ : ∃ (r : Fin 50000) (q : Fin 256), i = ix2 r q := ⟨i 0, i 1, eq_ix2 i⟩
  rw [val_main_v46_apply]
  show _ = ∑ k : Fin 256, max ((val_main_v41 (F := Ideal) x0 x1 x2) (ix2 r k) + b (ix2 (0 : Fin 1) k)) 0 * x4 (ix2 k q)
  refine Finset.sum_congr rfl fun k _ => ?_
  have hl : lidx_main_v46 (ix2 r q) k = ix2 r k := funext fun a => Fin.ext (by match a with | ⟨0, _⟩ => rfl | ⟨1, _⟩ => rfl)
  have hr : ridx_main_v46 (ix2 r q) k = ix2 k q := funext fun a => Fin.ext (by match a with | ⟨0, _⟩ => rfl | ⟨1, _⟩ => rfl)
  have hi : idx_main_v42 (idx_main_v43 (ix2 r k)) = ix1 k := funext fun a => Fin.ext (by match a with | ⟨0, _⟩ => rfl)
  rw [hl, hr, val_main_v45_apply, val_main_v44_apply, val_main_v43_apply, val_main_v42_apply,
    val_main_call0_v0_apply, val_main_call0_cst_apply, hi, hb k, Ideal.ofBits_def, Ideal.ofBits_zero_f32]
  rfl

/-- The third product, likewise, with the second bias and the third weight matrix. -/
theorem v64_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal))
    (b : FVec Ideal (⟨2, ![1, 256]⟩ : Shape) .f32) (hb : ∀ k : Fin 256, b (ix2 (0 : Fin 1) k) = x5 (ix1 k)) :
    val_main_v64 (F := Ideal) x0 x1 x2 x3 x4 x5 x6
      = Cert.Layer.biasReluProd (A := 50000) (K := 256) (B := 256) (val_main_v59 (F := Ideal) x0 x1 x2 x3 x4) b x6 := by
  funext i
  obtain ⟨r, q, rfl⟩ : ∃ (r : Fin 50000) (q : Fin 256), i = ix2 r q := ⟨i 0, i 1, eq_ix2 i⟩
  rw [val_main_v64_apply]
  show _ = ∑ k : Fin 256, max ((val_main_v59 (F := Ideal) x0 x1 x2 x3 x4) (ix2 r k) + b (ix2 (0 : Fin 1) k)) 0 * x6 (ix2 k q)
  refine Finset.sum_congr rfl fun k _ => ?_
  have hl : lidx_main_v64 (ix2 r q) k = ix2 r k := funext fun a => Fin.ext (by match a with | ⟨0, _⟩ => rfl | ⟨1, _⟩ => rfl)
  have hr : ridx_main_v64 (ix2 r q) k = ix2 k q := funext fun a => Fin.ext (by match a with | ⟨0, _⟩ => rfl | ⟨1, _⟩ => rfl)
  have hi : idx_main_v60 (idx_main_v61 (ix2 r k)) = ix1 k := funext fun a => Fin.ext (by match a with | ⟨0, _⟩ => rfl)
  rw [hl, hr, val_main_v63_apply, val_main_v62_apply, val_main_v61_apply, val_main_v60_apply,
    val_main_call1_v0_apply, val_main_call1_cst_apply, hi, hb k, Ideal.ofBits_def, Ideal.ofBits_zero_f32]
  rfl

/-- The fourth product, likewise, with the third bias and the two-column weight matrix. -/
theorem v82_eq (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x2, .f32⟩ : BufTy).Contents (Elt Ideal))
    (b : FVec Ideal (⟨2, ![1, 256]⟩ : Shape) .f32) (hb : ∀ k : Fin 256, b (ix2 (0 : Fin 1) k) = x7 (ix1 k)) :
    val_main_v82 (F := Ideal) x0 x1 x2 x3 x4 x5 x6 x7 x8
      = Cert.Layer.biasReluProd (A := 50000) (K := 256) (B := 2) (val_main_v77 (F := Ideal) x0 x1 x2 x3 x4 x5 x6) b x8 := by
  funext i
  obtain ⟨r, q, rfl⟩ : ∃ (r : Fin 50000) (q : Fin 2), i = ix2 r q := ⟨i 0, i 1, eq_ix2 i⟩
  rw [val_main_v82_apply]
  show _ = ∑ k : Fin 256, max ((val_main_v77 (F := Ideal) x0 x1 x2 x3 x4 x5 x6) (ix2 r k) + b (ix2 (0 : Fin 1) k)) 0 * x8 (ix2 k q)
  refine Finset.sum_congr rfl fun k _ => ?_
  have hl : lidx_main_v82 (ix2 r q) k = ix2 r k := funext fun a => Fin.ext (by match a with | ⟨0, _⟩ => rfl | ⟨1, _⟩ => rfl)
  have hr : ridx_main_v82 (ix2 r q) k = ix2 k q := funext fun a => Fin.ext (by match a with | ⟨0, _⟩ => rfl | ⟨1, _⟩ => rfl)
  have hi : idx_main_v78 (idx_main_v79 (ix2 r k)) = ix1 k := funext fun a => Fin.ext (by match a with | ⟨0, _⟩ => rfl)
  rw [hl, hr, val_main_v81_apply, val_main_v80_apply, val_main_v79_apply, val_main_v78_apply,
    val_main_call2_v0_apply, val_main_call2_cst_apply, hi, hb k, Ideal.ofBits_def, Ideal.ofBits_zero_f32]
  rfl

/-! ## The aggregations between the products -/

open Cert.KernelIdeal.Chain in
/-- The first aggregated array is the aggregation chain applied to the first product. -/
theorem v41_agg (x0 : (⟨S50000x256, .f32⟩ : BufTy).Contents (Elt Ideal)) (x1 : (⟨S2x800000, .i32⟩ : BufTy).Contents (Elt Ideal)) (x2 : (⟨S256x256, .f32⟩ : BufTy).Contents (Elt Ideal)) :
    val_main_v41 (F := Ideal) x0 x1 x2
      = agg256 (val_main_v3 (F := Ideal) x1) (val_main_v6 (F := Ideal) x1) (val_main_v27 (F := Ideal) x1) (val_main_v28 (F := Ideal) x0 x2) := rfl

open Cert.KernelIdeal.Chain in
/-- The second aggregated array is the chain applied to the second product. -/
theorem v59_agg (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) :
    val_main_v59 (F := Ideal) x0 x1 x2 x3 x4
      = agg256 (val_main_v3 (F := Ideal) x1) (val_main_v6 (F := Ideal) x1) (val_main_v27 (F := Ideal) x1) (val_main_v46 (F := Ideal) x0 x1 x2 x3 x4) := rfl

open Cert.KernelIdeal.Chain in
/-- The third aggregated array is the chain applied to the third product. -/
theorem v77_agg (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) :
    val_main_v77 (F := Ideal) x0 x1 x2 x3 x4 x5 x6
      = agg256 (val_main_v3 (F := Ideal) x1) (val_main_v6 (F := Ideal) x1) (val_main_v27 (F := Ideal) x1) (val_main_v64 (F := Ideal) x0 x1 x2 x3 x4 x5 x6) := rfl

open Cert.KernelIdeal.Chain in
/-- The result is the two-column chain applied to the fourth product, with the last bias added to every row. -/
theorem v98_out (x0 : (⟨S50000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x2, .f32⟩ : BufTy).Contents (Elt Ideal)) (x9 : (⟨S2, .f32⟩ : BufTy).Contents (Elt Ideal)) :
    val_main_v98 (F := Ideal) x0 x1 x2 x3 x4 x5 x6 x7 x8 x9
      = addBias2 (agg2 (val_main_v3 (F := Ideal) x1) (val_main_v6 (F := Ideal) x1) (val_main_v27 (F := Ideal) x1) (val_main_v82 (F := Ideal) x0 x1 x2 x3 x4 x5 x6 x7 x8)) x9 := rfl

end Cert.ReferenceIdeal.Layers

end
-- ==== Proof.KernelValue.lean ====
/-
  The idealized kernel's result is the reference's result term of the argument arrays.

  The run is followed boundary by boundary. Before the first product the host computes the graph's edge data from
  the edge list, as the reference does. Each product leaves the layer applied to the whole arrays it found, which is
  the reference's whole matrix product of the same arrays; each stretch of host operations between two products is
  the shared aggregation chain applied to the product before it. The edge data and the arguments not yet used pass
  through every boundary unchanged. So at every boundary each buffer that matters holds the reference's own term
  for that stage, and at the end the result array holds the reference's result term.
-/
import proofs.«145842_j31379031064900_1_alg».proof.Proof.Gen.KernelIdeal.Frame
import proofs.«145842_j31379031064900_1_alg».proof.Proof.HostSteps
import proofs.«145842_j31379031064900_1_alg».proof.Proof.Region0
import proofs.«145842_j31379031064900_1_alg».proof.Proof.Region1
import proofs.«145842_j31379031064900_1_alg».proof.Proof.Region2
import proofs.«145842_j31379031064900_1_alg».proof.Proof.Region3
import proofs.«145842_j31379031064900_1_alg».proof.Proof.RefLayers
import Idealize.ShloMosaic.Lib.ValueLayout

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## The argument arrays as launched, and the reference's terms of them -/

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)
abbrev X9 := m ((c : Thread nD τ).loc main_arg9)

/-- The source rows, the destination rows and the edge weights, from the edge list. -/
abbrev SRC := Cert.ReferenceIdeal.Read.val_main_v3 (F := Ideal) (X1 m c)
abbrev DST := Cert.ReferenceIdeal.Read.val_main_v6 (F := Ideal) (X1 m c)
abbrev NRM := Cert.ReferenceIdeal.Read.val_main_v27 (F := Ideal) (X1 m c)
/-- The four products and the three aggregated arrays between them, and the result. -/
abbrev H0 := Cert.ReferenceIdeal.Read.val_main_v28 (F := Ideal) (X0 m c) (X2 m c)
abbrev A0 := Cert.ReferenceIdeal.Read.val_main_v41 (F := Ideal) (X0 m c) (X1 m c) (X2 m c)
abbrev H1 := Cert.ReferenceIdeal.Read.val_main_v46 (F := Ideal) (X0 m c) (X1 m c) (X2 m c) (X3 m c) (X4 m c)
abbrev A1 := Cert.ReferenceIdeal.Read.val_main_v59 (F := Ideal) (X0 m c) (X1 m c) (X2 m c) (X3 m c) (X4 m c)
abbrev H2 := Cert.ReferenceIdeal.Read.val_main_v64 (F := Ideal) (X0 m c) (X1 m c) (X2 m c) (X3 m c) (X4 m c) (X5 m c) (X6 m c)
abbrev A2 := Cert.ReferenceIdeal.Read.val_main_v77 (F := Ideal) (X0 m c) (X1 m c) (X2 m c) (X3 m c) (X4 m c) (X5 m c) (X6 m c)
abbrev H3 := Cert.ReferenceIdeal.Read.val_main_v82 (F := Ideal) (X0 m c) (X1 m c) (X2 m c) (X3 m c) (X4 m c) (X5 m c) (X6 m c) (X7 m c) (X8 m c)
abbrev OUT := Cert.ReferenceIdeal.Read.val_main_v98 (F := Ideal) (X0 m c) (X1 m c) (X2 m c) (X3 m c) (X4 m c) (X5 m c) (X6 m c) (X7 m c) (X8 m c) (X9 m c)

/-! ## When the first product starts -/
theorem W1_edges : W1 m ρ c (Proc.devRef .tc main_v3) = SRC m c ∧ W1 m ρ c (Proc.devRef .tc main_v6) = DST m c ∧ W1 m ρ c (Proc.devRef .tc main_v27) = NRM m c :=
  Steps.host0_edges_of (W0 m ρ c) (X1 m c) rfl
theorem W1_v3 : W1 m ρ c (Proc.devRef .tc main_v3) = SRC m c :=
  (W1_edges m ρ c).1
theorem W1_v6 : W1 m ρ c (Proc.devRef .tc main_v6) = DST m c :=
  (W1_edges m ρ c).2.1
theorem W1_v27 : W1 m ρ c (Proc.devRef .tc main_v27) = NRM m c :=
  (W1_edges m ρ c).2.2
theorem W1_arg0 : W1 m ρ c (Proc.devRef .tc main_arg0) = X0 m c :=
  Steps.keep0_arg0 (W0 m ρ c)
theorem W1_arg2 : W1 m ρ c (Proc.devRef .tc main_arg2) = X2 m c :=
  Steps.keep0_arg2 (W0 m ρ c)
theorem W1_arg3 : W1 m ρ c (Proc.devRef .tc main_arg3) = X3 m c :=
  Steps.keep0_arg3 (W0 m ρ c)
theorem W1_arg4 : W1 m ρ c (Proc.devRef .tc main_arg4) = X4 m c :=
  Steps.keep0_arg4 (W0 m ρ c)
theorem W1_arg5 : W1 m ρ c (Proc.devRef .tc main_arg5) = X5 m c :=
  Steps.keep0_arg5 (W0 m ρ c)
theorem W1_arg6 : W1 m ρ c (Proc.devRef .tc main_arg6) = X6 m c :=
  Steps.keep0_arg6 (W0 m ρ c)
theorem W1_arg7 : W1 m ρ c (Proc.devRef .tc main_arg7) = X7 m c :=
  Steps.keep0_arg7 (W0 m ρ c)
theorem W1_arg8 : W1 m ρ c (Proc.devRef .tc main_arg8) = X8 m c :=
  Steps.keep0_arg8 (W0 m ρ c)
theorem W1_arg9 : W1 m ρ c (Proc.devRef .tc main_arg9) = X9 m c :=
  Steps.keep0_arg9 (W0 m ρ c)

/-! ## When the first product ends -/
theorem W2_v28 : W2 m ρ c (Proc.devRef .tc main_v28) = H0 m c :=
  (W2_arr m ρ c 2).trans ((Region0.final_of (V1 m ρ) c _ _ (W1_arg0 m ρ c) (W1_arg2 m ρ c)).trans (Cert.ReferenceIdeal.Layers.v28_eq _ _).symm)
theorem W2_v3 : W2 m ρ c (Proc.devRef .tc main_v3) = SRC m c :=
  (W2_of_ne m ρ c main_v3 (by decide)).trans (W1_v3 m ρ c)
theorem W2_v6 : W2 m ρ c (Proc.devRef .tc main_v6) = DST m c :=
  (W2_of_ne m ρ c main_v6 (by decide)).trans (W1_v6 m ρ c)
theorem W2_v27 : W2 m ρ c (Proc.devRef .tc main_v27) = NRM m c :=
  (W2_of_ne m ρ c main_v27 (by decide)).trans (W1_v27 m ρ c)
theorem W2_arg3 : W2 m ρ c (Proc.devRef .tc main_arg3) = X3 m c :=
  (W2_of_ne m ρ c main_arg3 (by decide)).trans (W1_arg3 m ρ c)
theorem W2_arg4 : W2 m ρ c (Proc.devRef .tc main_arg4) = X4 m c :=
  (W2_of_ne m ρ c main_arg4 (by decide)).trans (W1_arg4 m ρ c)
theorem W2_arg5 : W2 m ρ c (Proc.devRef .tc main_arg5) = X5 m c :=
  (W2_of_ne m ρ c main_arg5 (by decide)).trans (W1_arg5 m ρ c)
theorem W2_arg6 : W2 m ρ c (Proc.devRef .tc main_arg6) = X6 m c :=
  (W2_of_ne m ρ c main_arg6 (by decide)).trans (W1_arg6 m ρ c)
theorem W2_arg7 : W2 m ρ c (Proc.devRef .tc main_arg7) = X7 m c :=
  (W2_of_ne m ρ c main_arg7 (by decide)).trans (W1_arg7 m ρ c)
theorem W2_arg8 : W2 m ρ c (Proc.devRef .tc main_arg8) = X8 m c :=
  (W2_of_ne m ρ c main_arg8 (by decide)).trans (W1_arg8 m ρ c)
theorem W2_arg9 : W2 m ρ c (Proc.devRef .tc main_arg9) = X9 m c :=
  (W2_of_ne m ρ c main_arg9 (by decide)).trans (W1_arg9 m ρ c)

/-! ## When the second product starts -/
theorem W3_v41 : W3 m ρ c (Proc.devRef .tc main_v41) = A0 m c :=
  (Steps.host1_v41_of (W2 m ρ c) _ _ _ _ (W2_v3 m ρ c) (W2_v6 m ρ c) (W2_v27 m ρ c) (W2_v28 m ρ c)).trans
    (Cert.ReferenceIdeal.Layers.v41_agg (X0 m c) (X1 m c) (X2 m c)).symm
theorem W3_v42 : W3 m ρ c (Proc.devRef .tc main_v42) = shapeCast S1x256 (X3 m c) shapeCasts_S256_S1x256 :=
  Steps.host1_v42_of (W2 m ρ c) _ (W2_arg3 m ρ c)
theorem W3_v3 : W3 m ρ c (Proc.devRef .tc main_v3) = SRC m c :=
  (Steps.keep1_v3 (W2 m ρ c)).trans (W2_v3 m ρ c)
theorem W3_v6 : W3 m ρ c (Proc.devRef .tc main_v6) = DST m c :=
  (Steps.keep1_v6 (W2 m ρ c)).trans (W2_v6 m ρ c)
theorem W3_v27 : W3 m ρ c (Proc.devRef .tc main_v27) = NRM m c :=
  (Steps.keep1_v27 (W2 m ρ c)).trans (W2_v27 m ρ c)
theorem W3_arg4 : W3 m ρ c (Proc.devRef .tc main_arg4) = X4 m c :=
  (Steps.keep1_arg4 (W2 m ρ c)).trans (W2_arg4 m ρ c)
theorem W3_arg5 : W3 m ρ c (Proc.devRef .tc main_arg5) = X5 m c :=
  (Steps.keep1_arg5 (W2 m ρ c)).trans (W2_arg5 m ρ c)
theorem W3_arg6 : W3 m ρ c (Proc.devRef .tc main_arg6) = X6 m c :=
  (Steps.keep1_arg6 (W2 m ρ c)).trans (W2_arg6 m ρ c)
theorem W3_arg7 : W3 m ρ c (Proc.devRef .tc main_arg7) = X7 m c :=
  (Steps.keep1_arg7 (W2 m ρ c)).trans (W2_arg7 m ρ c)
theorem W3_arg8 : W3 m ρ c (Proc.devRef .tc main_arg8) = X8 m c :=
  (Steps.keep1_arg8 (W2 m ρ c)).trans (W2_arg8 m ρ c)
theorem W3_arg9 : W3 m ρ c (Proc.devRef .tc main_arg9) = X9 m c :=
  (Steps.keep1_arg9 (W2 m ρ c)).trans (W2_arg9 m ρ c)

/-! ## When the second product ends -/
theorem W4_v43 : W4 m ρ c (Proc.devRef .tc main_v43) = H1 m c :=
  (W4_arr m ρ c 3).trans ((Region1.final_of (V3 m ρ) c _ _ _ (W3_v41 m ρ c) (W3_v42 m ρ c) (W3_arg4 m ρ c)).trans
    (Cert.ReferenceIdeal.Layers.v46_eq (X0 m c) (X1 m c) (X2 m c) (X3 m c) (X4 m c) _ (fun k => shapeCast_a_1a_apply _ _ (0 : Fin 1) k)).symm)
theorem W4_v3 : W4 m ρ c (Proc.devRef .tc main_v3) = SRC m c :=
  (W4_of_ne m ρ c main_v3 (by decide)).trans (W3_v3 m ρ c)
theorem W4_v6 : W4 m ρ c (Proc.devRef .tc main_v6) = DST m c :=
  (W4_of_ne m ρ c main_v6 (by decide)).trans (W3_v6 m ρ c)
theorem W4_v27 : W4 m ρ c (Proc.devRef .tc main_v27) = NRM m c :=
  (W4_of_ne m ρ c main_v27 (by decide)).trans (W3_v27 m ρ c)
theorem W4_arg5 : W4 m ρ c (Proc.devRef .tc main_arg5) = X5 m c :=
  (W4_of_ne m ρ c main_arg5 (by decide)).trans (W3_arg5 m ρ c)
theorem W4_arg6 : W4 m ρ c (Proc.devRef .tc main_arg6) = X6 m c :=
  (W4_of_ne m ρ c main_arg6 (by decide)).trans (W3_arg6 m ρ c)
theorem W4_arg7 : W4 m ρ c (Proc.devRef .tc main_arg7) = X7 m c :=
  (W4_of_ne m ρ c main_arg7 (by decide)).trans (W3_arg7 m ρ c)
theorem W4_arg8 : W4 m ρ c (Proc.devRef .tc main_arg8) = X8 m c :=
  (W4_of_ne m ρ c main_arg8 (by decide)).trans (W3_arg8 m ρ c)
theorem W4_arg9 : W4 m ρ c (Proc.devRef .tc main_arg9) = X9 m c :=
  (W4_of_ne m ρ c main_arg9 (by decide)).trans (W3_arg9 m ρ c)

/-! ## When the third product starts -/
theorem W5_v56 : W5 m ρ c (Proc.devRef .tc main_v56) = A1 m c :=
  (Steps.host2_v56_of (W4 m ρ c) _ _ _ _ (W4_v3 m ρ c) (W4_v6 m ρ c) (W4_v27 m ρ c) (W4_v43 m ρ c)).trans
    (Cert.ReferenceIdeal.Layers.v59_agg (X0 m c) (X1 m c) (X2 m c) (X3 m c) (X4 m c)).symm
theorem W5_v57 : W5 m ρ c (Proc.devRef .tc main_v57) = shapeCast S1x256 (X5 m c) shapeCasts_S256_S1x256 :=
  Steps.host2_v57_of (W4 m ρ c) _ (W4_arg5 m ρ c)
theorem W5_v3 : W5 m ρ c (Proc.devRef .tc main_v3) = SRC m c :=
  (Steps.keep2_v3 (W4 m ρ c)).trans (W4_v3 m ρ c)
theorem W5_v6 : W5 m ρ c (Proc.devRef .tc main_v6) = DST m c :=
  (Steps.keep2_v6 (W4 m ρ c)).trans (W4_v6 m ρ c)
theorem W5_v27 : W5 m ρ c (Proc.devRef .tc main_v27) = NRM m c :=
  (Steps.keep2_v27 (W4 m ρ c)).trans (W4_v27 m ρ c)
theorem W5_arg6 : W5 m ρ c (Proc.devRef .tc main_arg6) = X6 m c :=
  (Steps.keep2_arg6 (W4 m ρ c)).trans (W4_arg6 m ρ c)
theorem W5_arg7 : W5 m ρ c (Proc.devRef .tc main_arg7) = X7 m c :=
  (Steps.keep2_arg7 (W4 m ρ c)).trans (W4_arg7 m ρ c)
theorem W5_arg8 : W5 m ρ c (Proc.devRef .tc main_arg8) = X8 m c :=
  (Steps.keep2_arg8 (W4 m ρ c)).trans (W4_arg8 m ρ c)
theorem W5_arg9 : W5 m ρ c (Proc.devRef .tc main_arg9) = X9 m c :=
  (Steps.keep2_arg9 (W4 m ρ c)).trans (W4_arg9 m ρ c)

/-! ## When the third product ends -/
theorem W6_v58 : W6 m ρ c (Proc.devRef .tc main_v58) = H2 m c :=
  (W6_arr m ρ c 3).trans ((Region2.final_of (V5 m ρ) c _ _ _ (W5_v56 m ρ c) (W5_v57 m ρ c) (W5_arg6 m ρ c)).trans
    (Cert.ReferenceIdeal.Layers.v64_eq (X0 m c) (X1 m c) (X2 m c) (X3 m c) (X4 m c) (X5 m c) (X6 m c) _ (fun k => shapeCast_a_1a_apply _ _ (0 : Fin 1) k)).symm)
theorem W6_v3 : W6 m ρ c (Proc.devRef .tc main_v3) = SRC m c :=
  (W6_of_ne m ρ c main_v3 (by decide)).trans (W5_v3 m ρ c)
theorem W6_v6 : W6 m ρ c (Proc.devRef .tc main_v6) = DST m c :=
  (W6_of_ne m ρ c main_v6 (by decide)).trans (W5_v6 m ρ c)
theorem W6_v27 : W6 m ρ c (Proc.devRef .tc main_v27) = NRM m c :=
  (W6_of_ne m ρ c main_v27 (by decide)).trans (W5_v27 m ρ c)
theorem W6_arg7 : W6 m ρ c (Proc.devRef .tc main_arg7) = X7 m c :=
  (W6_of_ne m ρ c main_arg7 (by decide)).trans (W5_arg7 m ρ c)
theorem W6_arg8 : W6 m ρ c (Proc.devRef .tc main_arg8) = X8 m c :=
  (W6_of_ne m ρ c main_arg8 (by decide)).trans (W5_arg8 m ρ c)
theorem W6_arg9 : W6 m ρ c (Proc.devRef .tc main_arg9) = X9 m c :=
  (W6_of_ne m ρ c main_arg9 (by decide)).trans (W5_arg9 m ρ c)

/-! ## When the fourth product starts -/
theorem W7_v71 : W7 m ρ c (Proc.devRef .tc main_v71) = A2 m c :=
  (Steps.host3_v71_of (W6 m ρ c) _ _ _ _ (W6_v3 m ρ c) (W6_v6 m ρ c) (W6_v27 m ρ c) (W6_v58 m ρ c)).trans
    (Cert.ReferenceIdeal.Layers.v77_agg (X0 m c) (X1 m c) (X2 m c) (X3 m c) (X4 m c) (X5 m c) (X6 m c)).symm
theorem W7_v72 : W7 m ρ c (Proc.devRef .tc main_v72) = shapeCast S1x256 (X7 m c) shapeCasts_S256_S1x256 :=
  Steps.host3_v72_of (W6 m ρ c) _ (W6_arg7 m ρ c)
theorem W7_v3 : W7 m ρ c (Proc.devRef .tc main_v3) = SRC m c :=
  (Steps.keep3_v3 (W6 m ρ c)).trans (W6_v3 m ρ c)
theorem W7_v6 : W7 m ρ c (Proc.devRef .tc main_v6) = DST m c :=
  (Steps.keep3_v6 (W6 m ρ c)).trans (W6_v6 m ρ c)
theorem W7_v27 : W7 m ρ c (Proc.devRef .tc main_v27) = NRM m c :=
  (Steps.keep3_v27 (W6 m ρ c)).trans (W6_v27 m ρ c)
theorem W7_arg8 : W7 m ρ c (Proc.devRef .tc main_arg8) = X8 m c :=
  (Steps.keep3_arg8 (W6 m ρ c)).trans (W6_arg8 m ρ c)
theorem W7_arg9 : W7 m ρ c (Proc.devRef .tc main_arg9) = X9 m c :=
  (Steps.keep3_arg9 (W6 m ρ c)).trans (W6_arg9 m ρ c)

/-! ## When the fourth product ends -/
theorem W8_v73 : W8 m ρ c (Proc.devRef .tc main_v73) = H3 m c :=
  (W8_arr m ρ c 3).trans ((Region3.final_of (V7 m ρ) c _ _ _ (W7_v71 m ρ c) (W7_v72 m ρ c) (W7_arg8 m ρ c)).trans
    (Cert.ReferenceIdeal.Layers.v82_eq (X0 m c) (X1 m c) (X2 m c) (X3 m c) (X4 m c) (X5 m c) (X6 m c) (X7 m c) (X8 m c) _ (fun k => shapeCast_a_1a_apply _ _ (0 : Fin 1) k)).symm)
theorem W8_v3 : W8 m ρ c (Proc.devRef .tc main_v3) = SRC m c :=
  (W8_of_ne m ρ c main_v3 (by decide)).trans (W7_v3 m ρ c)
theorem W8_v6 : W8 m ρ c (Proc.devRef .tc main_v6) = DST m c :=
  (W8_of_ne m ρ c main_v6 (by decide)).trans (W7_v6 m ρ c)
theorem W8_v27 : W8 m ρ c (Proc.devRef .tc main_v27) = NRM m c :=
  (W8_of_ne m ρ c main_v27 (by decide)).trans (W7_v27 m ρ c)
theorem W8_arg9 : W8 m ρ c (Proc.devRef .tc main_arg9) = X9 m c :=
  (W8_of_ne m ρ c main_arg9 (by decide)).trans (W7_arg9 m ρ c)

/-! ## At the end -/
/-- The result array ends at the reference's result term of the argument arrays. -/
theorem W9_v89 : W9 m ρ c (Proc.devRef .tc main_v89) = OUT m c :=
  (Steps.host4_v89_of (W8 m ρ c) _ _ _ _ _ (W8_v3 m ρ c) (W8_v6 m ρ c) (W8_v27 m ρ c) (W8_v73 m ρ c) (W8_arg9 m ρ c)).trans
    (Cert.ReferenceIdeal.Layers.v98_out (X0 m c) (X1 m c) (X2 m c) (X3 m c) (X4 m c) (X5 m c) (X6 m c) (X7 m c) (X8 m c) (X9 m c)).symm

end Cert.KernelIdeal.Value

end
-- ==== Proof.lean ====
/-
  A four-layer graph convolution: the tiled kernel against the plain reference, over the extended reals.

  With S the source rows, D the destination rows and n the edge weights computed from the edge list (every node
  also gets an edge to itself; an edge's weight is the product of the inverse square roots of its two end nodes'
  in-degrees), write agg (h) for "gather the rows S of h, scale row e by n e, add row e into row D e of a zero
  matrix". The reference computes
      h₁ = relu (agg (x · W₀) + b₀),  h₂ = relu (agg (h₁ · W₁) + b₁),  h₃ = relu (agg (h₂ · W₂) + b₂),
      out = agg (h₃ · W₃) + b₃,
  every product one whole matrix product. The kernel's program computes the same edge data and the same
  aggregations with the same host operations, and each product in ten tiles of 5000 rows on the TensorCore, where
  from the second product on the tile first adds the bias row and clamps negatives to zero — so the bias and the
  clamp sit at the start of the next product instead of the end of the previous layer — and rounds both factors to a
  narrower float format before multiplying into a zero accumulator.

  Over the extended reals the rounding is the identity, a product into zero is the plain sum over the contracted
  axis, and row r of a tiled product depends on row r of the left factor only; so each tiled product leaves exactly
  the reference's whole product of the same arrays (the sums are equal term by term: no rearrangement, so nothing
  is asked of the inputs' finiteness). The aggregations are one shared chain applied to equal arrays. Following the
  run boundary by boundary, the kernel's result array ends at the reference's own result term of the arguments.

  The three frames: the two kernel programs by their generated frame proofs, the reference by its generated run.
  The idealization rewrote no operation, so nothing is owed for it.
-/
import proofs.«145842_j31379031064900_1_alg».proof.Defs
import proofs.«145842_j31379031064900_1_alg».proof.Proof.Gen.Kernel
import proofs.«145842_j31379031064900_1_alg».proof.Proof.Gen.Kernel.Skeleton
import proofs.«145842_j31379031064900_1_alg».proof.Proof.Gen.Kernel.Launch
import proofs.«145842_j31379031064900_1_alg».proof.Proof.Gen.Kernel.Points
import proofs.«145842_j31379031064900_1_alg».proof.Proof.Gen.Kernel.Frame
import proofs.«145842_j31379031064900_1_alg».proof.Proof.Gen.KernelIdeal
import proofs.«145842_j31379031064900_1_alg».proof.Proof.Gen.KernelIdeal.Skeleton
import proofs.«145842_j31379031064900_1_alg».proof.Proof.Gen.KernelIdeal.Launch
import proofs.«145842_j31379031064900_1_alg».proof.Proof.Gen.KernelIdeal.Points
import proofs.«145842_j31379031064900_1_alg».proof.Proof.Gen.KernelIdeal.Frame
import proofs.«145842_j31379031064900_1_alg».proof.Proof.Gen.ReferenceIdeal
import proofs.«145842_j31379031064900_1_alg».proof.Proof.Gen.ReferenceIdeal.Run
import proofs.«145842_j31379031064900_1_alg».proof.Proof.Gen.ReferenceIdeal.Read
import proofs.«145842_j31379031064900_1_alg».proof.Proof.Gen.Pre_finite_inputs
import proofs.«145842_j31379031064900_1_alg».proof.Proof.KernelRun
import proofs.«145842_j31379031064900_1_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the ten arguments both programs end with the result array at the reference's result
    term of the arguments: the kernel by following its run boundary by boundary, the reference by its generated run. -/
theorem algebraic : Cert.algebraic_KernelIdeal_ReferenceIdeal := by
  intro m ρ m' ρ' _ hagree
  refine ⟨fun c => Cert.KernelIdeal.Value.OUT m c, ?_, ?_⟩
  · exact (θ_run Cert.KernelIdeal.defs _ _).mono
      (fun r h c => ⟨(h c).1.trans (Cert.KernelIdeal.Value.W9_v89 m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v98_eq m' c).trans ?_
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
